-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) (main_arg1 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .bf16⟩
  | .hbm, ⟨3, _⟩ => ⟨S8x2048x1024, .f32⟩
  | .hbm, ⟨4, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x256x2048, .f32⟩
  | .local _ .vmem, ⟨7, _⟩ => ⟨S1x256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .bf16 = 32 ∨ (Rect.block (s := S8x2048x1024) S1x2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x2048x1024.size a
  hwx0_3 : ∀ i : grid0.Coords, EltTy.bits .f32 = 32 ∨ (Rect.block (s := S8x2048x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S8x2048x2048.size a
  hwx0_4 : ∀ i : grid0.Coords, EltTy.bits .f32 = 32 ∨ (Rect.block (s := S8x2048x2048) S1x256x2048.size (cc0_transform_4 i) (hinb0_4 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x256x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Spec.lean ====
/-
  Dot-product attention of one query row against a fixed set of keys and values, over the extended reals.

  For a query row `r` (1024 entries), keys `K` and values `V` (2048 rows of 1024 entries each):
  the score of key `k` is the inner product `∑ d, r d · K k d`; the row's maximum is the fold of `max` over the
  2048 scores, started at `-∞`; the unnormalised weight of key `k` is `exp (score k − maximum)`; the normaliser is
  the sum of the 2048 unnormalised weights; the weight of key `k` is the quotient of the two; and entry `d` of the
  context row is `∑ k, weight k · V k d`.

  The two result arrays are these row functions read at every batch `b` and query position `q` of the argument
  arrays: the weights `[8, 2048, 2048]` and the contexts `[8, 2048, 1024]`, with the keys and the values both the
  rows of the second argument in batch `b`.
-/
import Idealize.ShloMosaic.PureOps.Ideal
import Idealize.ShloMosaic.Lib.ValueIdx

noncomputable section

open scoped BigOperators

namespace Cert.Attention

open Idealize.ShloMosaic Idealize.ShloMosaic.ValueIdx

/-- `-∞` as the single-precision pattern both programs start a row's maximum from. -/
abbrev negInf : EReal := Ideal.ofBits .f32 0xFF800000#32

/-- The inner product of the query row with key `k`. -/
def score (r : Fin 1024 → EReal) (K : Fin 2048 → Fin 1024 → EReal) (k : Fin 2048) : EReal :=
  ∑ d : Fin 1024, r d * K k d

/-- The largest of the row's 2048 scores (from `-∞`). -/
def rowMax (r : Fin 1024 → EReal) (K : Fin 2048 → Fin 1024 → EReal) : EReal :=
  (Finset.univ : Finset (Fin 2048)).fold max negInf (score r K)

/-- The unnormalised weight of key `k`: the exponential of its score less the row's maximum. -/
def unnorm (r : Fin 1024 → EReal) (K : Fin 2048 → Fin 1024 → EReal) (k : Fin 2048) : EReal :=
  Ideal.exp (score r K k - rowMax r K)

/-- The normaliser: the sum of the row's unnormalised weights. -/
def denom (r : Fin 1024 → EReal) (K : Fin 2048 → Fin 1024 → EReal) : EReal :=
  ∑ k : Fin 2048, unnorm r K k

/-- The softmax weight of key `k`. -/
def weight (r : Fin 1024 → EReal) (K : Fin 2048 → Fin 1024 → EReal) (k : Fin 2048) : EReal :=
  Ideal.div (unnorm r K k) (denom r K)

/-- Entry `d` of the context row: the values' column `d` averaged with the row's weights. -/
def context (r : Fin 1024 → EReal) (K V : Fin 2048 → Fin 1024 → EReal) (d : Fin 1024) : EReal :=
  ∑ k : Fin 2048, weight r K k * V k d

/-- Row `q` of batch `b` of an `[8, 2048, 1024]` array. -/
abbrev rowOf (x : (⟨3, ![8, 2048, 1024]⟩ : Shape).Idx → EReal) (b : Fin 8) (q : Fin 2048) : Fin 1024 → EReal :=
  fun d => x (ix3 b q d)

/-- Batch `b` of an `[8, 2048, 1024]` array, as 2048 rows. -/
abbrev rowsOf (x : (⟨3, ![8, 2048, 1024]⟩ : Shape).Idx → EReal) (b : Fin 8) : Fin 2048 → Fin 1024 → EReal :=
  fun k d => x (ix3 b k d)

/-- The attention weights of every query row of the first argument against the second argument's rows of the same
    batch. -/
def weights (x0 x1 : (⟨3, ![8, 2048, 1024]⟩ : Shape).Idx → EReal) : (⟨3, ![8, 2048, 2048]⟩ : Shape).Idx → EReal :=
  fun i => weight (rowOf x0 (i 0) (i 1)) (rowsOf x1 (i 0)) (i 2)

/-- The context rows: the second argument's rows of the same batch averaged with those weights. -/
def contexts (x0 x1 : (⟨3, ![8, 2048, 1024]⟩ : Shape).Idx → EReal) : (⟨3, ![8, 2048, 1024]⟩ : Shape).Idx → EReal :=
  fun i => context (rowOf x0 (i 0) (i 1)) (rowsOf x1 (i 0)) (rowsOf x1 (i 0)) (i 2)

/-- `-∞` is neutral for `max`. -/
theorem max_negInf (x : EReal) : max negInf x = x := by
  show max (Ideal.ofBits .f32 0xFF800000#32) x = x
  simp [Ideal.ofBits, Ideal.ieee]

end Cert.Attention

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.LibRowMax.lean ====
/-
  A row's maximum read at an index given by coordinates, over the extended reals, at any extents: the lane maximum of a
  matrix `[a, b]` along its second axis, and the maximum of an array `[a, b, c]` along its last axis taken by a
  one-operand reduction from an initial value, are each the fold of `max` over the reduced axis's coordinates of the
  row's entries — the inserted index is `(r, k)`, respectively `(p, r, k)`.
-/
import Idealize.ShloMosaic.Lib.ValueIdx
import Idealize.ShloMosaic.PureOps.Ideal.Laws

open scoped BigOperators

namespace Cert.Lib.RowMax

open Idealize.ShloMosaic Idealize.ShloMosaic.ValueIdx

/-- Over the extended reals, the lane maximum of an `[a, b]` array along its second axis is, at row `r`, the fold of
    `max` from the accumulator's value over that row's `b` entries. -/
theorem multiReduction_maximumf_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (r : Fin a) :
    multiReduction .maximumf [(1 : Fin 2)] ⟨1, ![a]⟩ src acc h hφ hacc (ix1 r)
      = (Finset.univ : Finset (Fin b)).fold max (FloatOps.ofBits φ acc) (fun k => src (ix2 r k)) := by
  rw [Ideal.multiReduction_maximumf_single]
  exact congrArg ((Finset.univ : Finset (Fin b)).fold max (FloatOps.ofBits φ acc)) (funext fun k => congrArg src (funext fun c => Fin.ext (by
    match c with | ⟨0, _⟩ => rfl | ⟨1, _⟩ => rfl)))

/-- Over the extended reals, a one-operand reduction by `max` of an `[a, b, c]` array along its last axis is, at
    `(p, r)`, the fold of `max` from the initial value over the `c` entries of that row. -/
theorem hostReduce_maximumf_abc_ab_apply {φ : FTy} {a b c : ℕ} {u : Shape} (x : (⟨3, ![a, b, c]⟩ : Shape).Idx → Ideal φ)
    (init : u.Idx → Ideal φ) (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < u.numel) (p : Fin a) (r : Fin b) :
    Host.reduce (FloatOps.maximumf (F := Ideal) (φ := φ)) x init h' hu (ix2 p r)
      = (Finset.univ : Finset (Fin c)).fold max (init (Shape.Idx.first hu)) (fun k => x (ix3 p r k)) := by
  rw [Host.reduce_eq_fold_single (FloatOps.maximumf (F := Ideal) (φ := φ)) x init h' h hu (ix2 p r)]
  exact congrArg ((Finset.univ : Finset (Fin c)).fold max (init (Shape.Idx.first hu))) (funext fun k => congrArg x (funext fun d => Fin.ext (by
    match d with | ⟨0, _⟩ => rfl | ⟨1, _⟩ => rfl | ⟨2, _⟩ => rfl)))

end Cert.Lib.RowMax
-- ==== Proof.KernelPayload.lean ====
/-
  What the kernel body computes from its three loaded blocks, read at an index, over the extended reals.

  The body holds a tile of 256 query rows `P0`, the batch's 2048 key rows `P1` and the same rows once more as the
  values `P2` (the narrower format is the identity here). Its score matrix is the product of the tile with the keys
  contracted over the 1024 features; each row's maximum and each row's sum of exponentials are lane reductions
  recast as a column and broadcast back along the row; so entry `(q, k)` of the quotient it stores as the weights
  is the softmax weight of key `k` for query row `q` of the tile, and entry `(q, d)` of the second product, which it
  stores as the context, is the values' column `d` averaged with row `q`'s weights.
-/
import proofs.«142089_j15994458211114_2_alg».proof.Proof.Gen.KernelIdeal.Skeleton
import proofs.«142089_j15994458211114_2_alg».proof.Proof.Spec
import proofs.«142089_j15994458211114_2_alg».proof.Proof.LibColumns
import proofs.«142089_j15994458211114_2_alg».proof.Proof.LibRowMax
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.Attention

/-- Row `q` of a query tile. -/
abbrev tileRow (P0 : FVec Ideal S1x256x1024 .f32) (q : Fin 256) : Fin 1024 → EReal := fun d => P0 (ix3 (0 : Fin 1) q d)

/-- A block of 2048 rows of 1024 entries, as rows. -/
abbrev blockRows {φ : FTy} (P : FVec Ideal S1x2048x1024 φ) : Fin 2048 → Fin 1024 → EReal := fun k d => P (ix3 (0 : Fin 1) k d)

/-- The body's score matrix: the tile times the keys, contracted over the features, onto zero. -/
def scoreMat (P0 : FVec Ideal S1x256x1024 .f32) (P1 : FVec Ideal S1x2048x1024 .f32) : FVec Ideal S256x2048 .f32 :=
  matmul dot_S256x1024_S2048x1024_S256x2048_1_1_0_0_n_n (some .fp32) (shapeCast S256x1024 P0 shapeCasts_S1x256x1024_S256x1024)
    (shapeCast S2048x1024 P1 shapeCasts_S1x2048x1024_S2048x1024) (constant S256x2048 .f32 0x00000000#32)

/-- Each row's maximum, as the body spreads it back over the row. -/
def rowMaxVec (s : FVec Ideal S256x2048 .f32) : FVec Ideal S256x2048 .f32 :=
  broadcastTo S256x2048 (shapeCast S256x1 (multiReduction .maximumf [1] S256 s 0xFF800000#32 reduces_S256x2048_S256 (.inl rfl) rfl)
    shapeCasts_S256_S256x1) broadcasts_S256x1_S256x2048

/-- Each row's sum, as the body spreads it back over the row. -/
def rowSumVec (e : FVec Ideal S256x2048 .f32) : FVec Ideal S256x2048 .f32 :=
  broadcastTo S256x2048 (shapeCast S256x1 (multiReduction .add [1] S256 e 0x00000000#32 reduces_S256x2048_S256 (.inl rfl) rfl)
    shapeCasts_S256_S256x1) broadcasts_S256x1_S256x2048

/-- The exponentials of the scores less their row's maximum. -/
def expMat (P0 : FVec Ideal S1x256x1024 .f32) (P1 : FVec Ideal S1x2048x1024 .f32) : FVec Ideal S256x2048 .f32 :=
  exp (subf (scoreMat P0 P1) (rowMaxVec (scoreMat P0 P1)))

/-- The weights the body computes are the exponentials over their row sums. -/
theorem pay1_eq (P0 : FVec Ideal S1x256x1024 .f32) (P1 : FVec Ideal S1x2048x1024 .f32) :
    k0_pay1 (F := Ideal) P0 P1 = divf (expMat P0 P1) (rowSumVec (expMat P0 P1)) := rfl

/-- The context block the body stores: the weights times the values, contracted over the keys, onto zero, with a leading
    unit axis. -/
theorem pay2_eq (P0 : FVec Ideal S1x256x1024 .f32) (P1 : FVec Ideal S1x2048x1024 .f32) (P2 : FVec Ideal S1x2048x1024 .bf16) :
    k0_pay2 (F := Ideal) P0 P1 P2 = shapeCast S1x256x1024 (matmul dot_S256x2048_S2048x1024_S256x1024_1_0_0_1_n_n none
      (truncf .bf16 (k0_pay1 (F := Ideal) P0 P1) bitsLt_bf16_f32) (shapeCast S2048x1024 P2 shapeCasts_S1x2048x1024_S2048x1024)
      (constant S256x1024 .f32 0x00000000#32)) shapeCasts_S256x1024_S1x256x1024 := rfl

/-! ## The two products' operand indices

At output index `j` and contraction coordinate `c`: the score product reads the tile at `(j 0, c)` and the keys at
`(j 1, c)`; the context product reads the weights at `(j 0, c)` and the values at `(c, j 1)`. -/

theorem score_lhs_0 (j : S256x2048.Idx) (c : dot_S256x1024_S2048x1024_S256x2048_1_1_0_0_n_n.contr.Idx) : (dot_S256x1024_S2048x1024_S256x2048_1_1_0_0_n_n.lhsIdx j c 0).val = (j 0).val := by
  unfold DotDims.lhsIdx
  rw [dif_neg (show ¬(0 : Fin S256x1024.rank) ∈ dot_S256x1024_S2048x1024_S256x2048_1_1_0_0_n_n.lhsBatch by decide),
    dif_pos (show (0 : Fin S256x1024.rank) ∈ dot_S256x1024_S2048x1024_S256x2048_1_1_0_0_n_n.lhsNonContracting by decide)]
  rfl
theorem score_lhs_1 (j : S256x2048.Idx) (c : dot_S256x1024_S2048x1024_S256x2048_1_1_0_0_n_n.contr.Idx) : (dot_S256x1024_S2048x1024_S256x2048_1_1_0_0_n_n.lhsIdx j c 1).val = (c ⟨0, by decide⟩).val :=
  dot_S256x1024_S2048x1024_S256x2048_1_1_0_0_n_n.lhsIdx_val_of_single rfl j c
theorem score_rhs_0 (j : S256x2048.Idx) (c : dot_S256x1024_S2048x1024_S256x2048_1_1_0_0_n_n.contr.Idx) : (dot_S256x1024_S2048x1024_S256x2048_1_1_0_0_n_n.rhsIdx j c 0).val = (j 1).val := by
  unfold DotDims.rhsIdx
  rw [dif_neg (show ¬(0 : Fin S2048x1024.rank) ∈ dot_S256x1024_S2048x1024_S256x2048_1_1_0_0_n_n.rhsBatch by decide),
    dif_pos (show (0 : Fin S2048x1024.rank) ∈ dot_S256x1024_S2048x1024_S256x2048_1_1_0_0_n_n.rhsNonContracting by decide)]
  rfl
theorem score_rhs_1 (j : S256x2048.Idx) (c : dot_S256x1024_S2048x1024_S256x2048_1_1_0_0_n_n.contr.Idx) : (dot_S256x1024_S2048x1024_S256x2048_1_1_0_0_n_n.rhsIdx j c 1).val = (c ⟨0, by decide⟩).val :=
  dot_S256x1024_S2048x1024_S256x2048_1_1_0_0_n_n.rhsIdx_val_of_single rfl j c
theorem ctx_lhs_0 (j : S256x1024.Idx) (c : dot_S256x2048_S2048x1024_S256x1024_1_0_0_1_n_n.contr.Idx) : (dot_S256x2048_S2048x1024_S256x1024_1_0_0_1_n_n.lhsIdx j c 0).val = (j 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
theorem ctx_lhs_1 (j : S256x1024.Idx) (c : dot_S256x2048_S2048x1024_S256x1024_1_0_0_1_n_n.contr.Idx) : (dot_S256x2048_S2048x1024_S256x1024_1_0_0_1_n_n.lhsIdx j c 1).val = (c ⟨0, by decide⟩).val :=
  dot_S256x2048_S2048x1024_S256x1024_1_0_0_1_n_n.lhsIdx_val_of_single rfl j c
theorem ctx_rhs_0 (j : S256x1024.Idx) (c : dot_S256x2048_S2048x1024_S256x1024_1_0_0_1_n_n.contr.Idx) : (dot_S256x2048_S2048x1024_S256x1024_1_0_0_1_n_n.rhsIdx j c 0).val = (c ⟨0, by decide⟩).val :=
  dot_S256x2048_S2048x1024_S256x1024_1_0_0_1_n_n.rhsIdx_val_of_single rfl j c
theorem ctx_rhs_1 (j : S256x1024.Idx) (c : dot_S256x2048_S2048x1024_S256x1024_1_0_0_1_n_n.contr.Idx) : (dot_S256x2048_S2048x1024_S256x1024_1_0_0_1_n_n.rhsIdx j c 1).val = (j 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- Entry `(q, k)` of the score matrix is the inner product of tile row `q` with key row `k`. -/
theorem scoreMat_apply (P0 : FVec Ideal S1x256x1024 .f32) (P1 : FVec Ideal S1x2048x1024 .f32) (q : Fin 256) (k : Fin 2048) :
    scoreMat P0 P1 (ix2 q k) = score (tileRow P0 q) (blockRows P1) k := by
  unfold scoreMat score
  refine (Ideal.matmul_constant_zero_apply dot_S256x1024_S2048x1024_S256x2048_1_1_0_0_n_n (some .fp32) (shapeCast S256x1024 P0 shapeCasts_S1x256x1024_S256x1024)
    (shapeCast S2048x1024 P1 shapeCasts_S1x2048x1024_S2048x1024) (ix2 q k)).trans ?_
  rw [← Equiv.sum_comp (contrEquiv1 dot_S256x1024_S2048x1024_S256x2048_1_1_0_0_n_n 1024 rfl rfl).symm]
  refine Finset.sum_congr rfl fun d _ => ?_
  have hd := contrEquiv1_symm_val dot_S256x1024_S2048x1024_S256x2048_1_1_0_0_n_n 1024 rfl rfl d
  have el : dot_S256x1024_S2048x1024_S256x2048_1_1_0_0_n_n.lhsIdx (ix2 q k)
      ((contrEquiv1 dot_S256x1024_S2048x1024_S256x2048_1_1_0_0_n_n 1024 rfl rfl).symm d) = ix2 q d := funext fun a => Fin.ext (by
    match a with
    | ⟨0, _⟩ => exact score_lhs_0 _ _
    | ⟨1, _⟩ => exact (score_lhs_1 _ _).trans hd)
  have er : dot_S256x1024_S2048x1024_S256x2048_1_1_0_0_n_n.rhsIdx (ix2 q k)
      ((contrEquiv1 dot_S256x1024_S2048x1024_S256x2048_1_1_0_0_n_n 1024 rfl rfl).symm d) = ix2 k d := funext fun a => Fin.ext (by
    match a with
    | ⟨0, _⟩ => exact score_rhs_0 _ _
    | ⟨1, _⟩ => exact (score_rhs_1 _ _).trans hd)
  rw [el, er, shapeCast_1ab_ab_apply, shapeCast_1ab_ab_apply]

/-- Every entry of row `q` of the spread maximum is the fold of `max` over that row, from `-∞`. -/
theorem rowMaxVec_apply (s : FVec Ideal S256x2048 .f32) (q : Fin 256) (k : Fin 2048) :
    rowMaxVec s (ix2 q k) = (Finset.univ : Finset (Fin 2048)).fold max negInf (fun k' => s (ix2 q k')) := by
  unfold rowMaxVec
  refine (Cert.Lib.Columns.broadcastTo_a1_ab_apply _ broadcasts_S256x1_S256x2048 q k).trans ?_
  refine (Cert.Lib.Columns.shapeCast_a_a1_apply _ shapeCasts_S256_S256x1 q (0 : Fin 1)).trans ?_
  exact Cert.Lib.RowMax.multiReduction_maximumf_ab_a_apply s 0xFF800000#32 reduces_S256x2048_S256 (.inl rfl) rfl q

/-- Every entry of row `q` of the spread sum is the sum of that row. -/
theorem rowSumVec_apply (e : FVec Ideal S256x2048 .f32) (q : Fin 256) (k : Fin 2048) :
    rowSumVec e (ix2 q k) = ∑ k' : Fin 2048, e (ix2 q k') := by
  unfold rowSumVec
  refine (Cert.Lib.Columns.broadcastTo_a1_ab_apply _ broadcasts_S256x1_S256x2048 q k).trans ?_
  refine (Cert.Lib.Columns.shapeCast_a_a1_apply _ shapeCasts_S256_S256x1 q (0 : Fin 1)).trans ?_
  exact Cert.Lib.Columns.multiReduction_add_ab_a_apply e 0x00000000#32 reduces_S256x2048_S256 (.inl rfl) rfl q

/-- Entry `(q, k)` of the exponentials is the unnormalised weight of key `k` for tile row `q`. -/
theorem expMat_apply (P0 : FVec Ideal S1x256x1024 .f32) (P1 : FVec Ideal S1x2048x1024 .f32) (q : Fin 256) (k : Fin 2048) :
    expMat P0 P1 (ix2 q k) = unnorm (tileRow P0 q) (blockRows P1) k := by
  show Ideal.exp (scoreMat P0 P1 (ix2 q k) - rowMaxVec (scoreMat P0 P1) (ix2 q k)) = _
  rw [rowMaxVec_apply, scoreMat_apply]
  unfold unnorm rowMax
  exact congrArg (fun M => Ideal.exp (score (tileRow P0 q) (blockRows P1) k - (Finset.univ : Finset (Fin 2048)).fold max negInf M))
    (funext fun k' => scoreMat_apply P0 P1 q k')

/-- Entry `(q, k)` of the weights the body computes is the softmax weight of key `k` for tile row `q`. -/
theorem pay1_apply (P0 : FVec Ideal S1x256x1024 .f32) (P1 : FVec Ideal S1x2048x1024 .f32) (q : Fin 256) (k : Fin 2048) :
    k0_pay1 (F := Ideal) P0 P1 (ix2 q k) = weight (tileRow P0 q) (blockRows P1) k := by
  rw [pay1_eq]
  show Ideal.div (expMat P0 P1 (ix2 q k)) (rowSumVec (expMat P0 P1) (ix2 q k)) = _
  rw [rowSumVec_apply, expMat_apply]
  unfold weight denom
  exact congrArg (Ideal.div (unnorm (tileRow P0 q) (blockRows P1) k)) (Finset.sum_congr rfl fun k' _ => expMat_apply P0 P1 q k')

/-- Entry `(0, q, d)` of the context block the body stores is the values' column `d` averaged with row `q`'s weights. -/
theorem pay2_apply (P0 : FVec Ideal S1x256x1024 .f32) (P1 : FVec Ideal S1x2048x1024 .f32) (P2 : FVec Ideal S1x2048x1024 .bf16)
    (u : Fin 1) (q : Fin 256) (d : Fin 1024) :
    k0_pay2 (F := Ideal) P0 P1 P2 (ix3 u q d) = context (tileRow P0 q) (blockRows P1) (blockRows P2) d := by
  rw [pay2_eq, shapeCast_ab_1ab_apply]
  unfold context
  refine (Ideal.matmul_constant_zero_apply dot_S256x2048_S2048x1024_S256x1024_1_0_0_1_n_n none (truncf .bf16 (k0_pay1 (F := Ideal) P0 P1) bitsLt_bf16_f32)
    (shapeCast S2048x1024 P2 shapeCasts_S1x2048x1024_S2048x1024) (ix2 q d)).trans ?_
  rw [← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 q d)
      ((contrEquiv1 dot_S256x2048_S2048x1024_S256x1024_1_0_0_1_n_n 2048 rfl rfl).symm k) = ix2 q k := funext fun a => Fin.ext (by
    match a with
    | ⟨0, _⟩ => exact ctx_lhs_0 _ _
    | ⟨1, _⟩ => exact (ctx_lhs_1 _ _).trans hk)
  have er : dot_S256x2048_S2048x1024_S256x1024_1_0_0_1_n_n.rhsIdx (ix2 q d)
      ((contrEquiv1 dot_S256x2048_S2048x1024_S256x1024_1_0_0_1_n_n 2048 rfl rfl).symm k) = ix2 k d := funext fun a => Fin.ext (by
    match a with
    | ⟨0, _⟩ => exact (ctx_rhs_0 _ _).trans hk
    | ⟨1, _⟩ => exact ctx_rhs_1 _ _)
  rw [el, er, shapeCast_1ab_ab_apply]
  show k0_pay1 (F := Ideal) P0 P1 (ix2 q k) * _ = _
  rw [pay1_apply]

/-! ## A block against the whole arrays

When the tile's row `q` is row `(b, r)` of the first argument and the key and value blocks are batch `b` of the second,
the stored context and weight entries are the whole-array functions at `(b, r, ·)`. -/

/-- The context block's entry `(u, q, d)` is the context array's entry `(b, r, d)`. -/
theorem context_block (x0 x1 : S8x2048x1024.Idx → EReal) (P0 : FVec Ideal S1x256x1024 .f32) (P1 : FVec Ideal S1x2048x1024 .f32)
    (P2 : FVec Ideal S1x2048x1024 .bf16) (b : Fin 8) (r : Fin 2048) (u : Fin 1) (q : Fin 256) (d : Fin 1024)
    (h0 : ∀ d', P0 (ix3 (0 : Fin 1) q d') = x0 (ix3 b r d'))
    (h1 : ∀ k d', P1 (ix3 (0 : Fin 1) k d') = x1 (ix3 b k d'))
    (h2 : ∀ k d', P2 (ix3 (0 : Fin 1) k d') = x1 (ix3 b k d')) :
    k0_pay2 (F := Ideal) P0 P1 P2 (ix3 u q d) = contexts x0 x1 (ix3 b r d) := by
  rw [pay2_apply]
  show _ = context (rowOf x0 b r) (rowsOf x1 b) (rowsOf x1 b) d
  rw [show tileRow P0 q = rowOf x0 b r from funext h0, show blockRows P1 = rowsOf x1 b from funext fun k => funext (h1 k),
    show blockRows P2 = rowsOf x1 b from funext fun k => funext (h2 k)]

/-- The weight block's entry `(u, q, k)` is the weight array's entry `(b, r, k)`. -/
theorem weight_block (x0 x1 : S8x2048x1024.Idx → EReal) (P0 : FVec Ideal S1x256x1024 .f32) (P1 : FVec Ideal S1x2048x1024 .f32)
    (b : Fin 8) (r : Fin 2048) (u : Fin 1) (q : Fin 256) (k : Fin 2048)
    (h0 : ∀ d', P0 (ix3 (0 : Fin 1) q d') = x0 (ix3 b r d'))
    (h1 : ∀ k' d', P1 (ix3 (0 : Fin 1) k' d') = x1 (ix3 b k' d')) :
    k0_pay3 (F := Ideal) P0 P1 (ix3 u q k) = weights x0 x1 (ix3 b r k) := by
  show shapeCast S1x256x2048 (k0_pay1 (F := Ideal) P0 P1) shapeCasts_S256x2048_S1x256x2048 (ix3 u q k) = _
  rw [shapeCast_ab_1ab_apply, pay1_apply]
  show _ = weight (rowOf x0 b r) (rowsOf x1 b) k
  rw [show tileRow P0 q = rowOf x0 b r from funext h0, show blockRows P1 = rowsOf x1 b from funext fun k' => funext (h1 k')]

end Cert.KernelIdeal.Payload

end
-- ==== Proof.KernelBlocks.lean ====
/-
  From what each grid point writes back to the two result arrays.

  The grid has 8 × 8 points; point `(b, qi)` holds rows `256·qi … 256·qi + 255` of batch `b` of the first argument as its
  query tile, all of batch `b` of the second argument as its keys, and the same rows (a format change of them, which is
  the identity over the extended reals) as its values; it writes rows `256·qi … 256·qi + 255` of batch `b` of both results.
  So every point writes the block of the whole-array context and weight functions that its output windows show, the 64
  blocks cover both arrays, and after the run the arrays are those functions of the arguments.
-/
import proofs.«142089_j15994458211114_2_alg».proof.Proof.Gen.KernelIdeal.Value
import proofs.«142089_j15994458211114_2_alg».proof.Proof.KernelPayload
import Idealize.ShloMosaic.Lib.Pipeline.Value
import Idealize.ShloMosaic.Lib.StableHlo.Run

noncomputable section

namespace Cert.KernelIdeal.Blocks

open Cert.KernelIdeal Cert.KernelIdeal.Gen Cert.KernelIdeal.Payload Idealize.ShloMosaic Idealize.ShloMosaic.TcCoe Idealize.SL.Sem
open Idealize.ShloMosaic.ValueIdx Idealize.ShloMosaic.StableHlo
open Idealize.ShloMosaic.Pipeline (Dat)
open Cert.Attention

variable (m : (ℓ : Loc nD τ sig) → Buf (Elt Ideal) ℓ) (ρ : Dev nD → PrngReg)

theorem hz : (![0, 0, 0] : Fin 3 → Nat) = fun _ => 0 := funext fun a => by fin_cases a <;> rfl

/-- The first argument as the region finds it. -/
abbrev queries (c : Dev nD) : S8x2048x1024.Idx → EReal := m ((c : Thread nD τ).loc main_arg0)
/-- The second argument as the region finds it. -/
abbrev keys (c : Dev nD) : S8x2048x1024.Idx → EReal := m ((c : Thread nD τ).loc main_arg1)

/-- The values array the region finds is the second argument: the host's format change is the identity. -/
theorem V_values (c : Dev nD) : (V m c main_v0 : S8x2048x1024.Idx → EReal) = keys m c := by
  dsimp only [Gen.V, Gen.hostOps0]; after_results; rfl

/-- The printed index maps over the grid: the query tile and both outputs move together over batch and row tile, the key
    and value blocks follow the batch only, and no window moves along its last axis. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 7 ∧ win0_3.index t (1 : Fin 3) ≤ 7 ∧ win0_3.index t (2 : Fin 3) = 0 :=
  (by decide +kernel : ∀ t : Fin grid0.N, _)

/-- Every (batch, row tile) pair is some point's. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-! ## The input blocks as rows of the arguments -/

/-- An entry of the query tile at point `t` is the first argument's entry at block index × block size + the coordinate. -/
theorem iblk0_apply (c : Dev nD) (t : Fin cfg0.N) (y : S1x256x1024.Idx) (i : S8x2048x1024.Idx)
    (h0 : (i 0).val = win0_0.index t (0 : Fin 3) * 1 + (y 0).val)
    (h1 : (i 1).val = win0_0.index t (1 : Fin 3) * 256 + (y 1).val)
    (h2 : (i 2).val = win0_0.index t (2 : Fin 3) * 1024 + (y 2).val) :
    (iblk m c 0 t : S1x256x1024.Idx → EReal) y = queries m c i := by
  unfold iblk
  rw [View.read_apply]
  show V m c main_arg0 _ = _
  rw [V_main_arg0]
  refine congrArg (queries m c) ?_
  funext a; apply Fin.ext
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 1024 + 1 * (y 2).val = (i 2).val; omega

/-- An entry of the key block at point `t` is the second argument's entry at block index × block size + the coordinate. -/
theorem iblk1_apply (c : Dev nD) (t : Fin cfg0.N) (y : S1x2048x1024.Idx) (i : S8x2048x1024.Idx)
    (h0 : (i 0).val = win0_1.index t (0 : Fin 3) * 1 + (y 0).val)
    (h1 : (i 1).val = win0_1.index t (1 : Fin 3) * 2048 + (y 1).val)
    (h2 : (i 2).val = win0_1.index t (2 : Fin 3) * 1024 + (y 2).val) :
    (iblk m c 1 t : S1x2048x1024.Idx → EReal) y = keys m c i := by
  unfold iblk
  rw [View.read_apply]
  show V m c main_arg1 _ = _
  rw [V_main_arg1]
  refine congrArg (keys m c) ?_
  funext a; apply Fin.ext
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 1024 + 1 * (y 2).val = (i 2).val; omega

/-- An entry of the value block at point `t` is the second argument's entry likewise. -/
theorem iblk2_apply (c : Dev nD) (t : Fin cfg0.N) (y : S1x2048x1024.Idx) (i : S8x2048x1024.Idx)
    (h0 : (i 0).val = win0_2.index t (0 : Fin 3) * 1 + (y 0).val)
    (h1 : (i 1).val = win0_2.index t (1 : Fin 3) * 2048 + (y 1).val)
    (h2 : (i 2).val = win0_2.index t (2 : Fin 3) * 1024 + (y 2).val) :
    (iblk m c 2 t : S1x2048x1024.Idx → EReal) y = keys m c i := by
  unfold iblk
  rw [View.read_apply]
  show (V m c main_v0 : S8x2048x1024.Idx → EReal) _ = _
  rw [V_values]
  refine congrArg (keys m c) ?_
  funext a; apply Fin.ext
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 1024 + 1 * (y 2).val = (i 2).val; omega

/-! ## What a point writes back -/

/-- The context entry point `t` stores at block coordinate `y` is the context array's entry under it. -/
theorem context_point (c : Dev nD) (t : Fin cfg0.N) (y : S1x256x1024.Idx) :
    k0_pay2 (F := Ideal) (iblk m c 0 t) (iblk m c 1 t) (iblk m c 2 t) y
      = contexts (queries m c) (keys m c) (((cfg0.win 3).blk t).view.emb y) := by
  obtain ⟨e00, e01, e02, e10, e11, e12, e20, e21, e22, e40, e41, e42, hb, hq, e32⟩ := idx_facts t
  obtain ⟨u, q, d, rfl⟩ : ∃ (u : Fin 1) (q : Fin 256) (d : Fin 1024), y = ix3 u q d := ⟨y 0, y 1, y 2, eq_ix3 y⟩
  have hu : u.val = 0 := by omega
  have hq' : q.val < 256 := q.isLt
  have hi : ((cfg0.win 3).blk t).view.emb (ix3 u q d)
      = ix3 (⟨win0_3.index t (0 : Fin 3), by omega⟩ : Fin 8) (⟨win0_3.index t (1 : Fin 3) * 256 + q.val, by omega⟩ : Fin 2048) d :=
    funext fun a => Fin.ext (by
      match a with
      | ⟨0, _⟩ => show win0_3.index t (0 : Fin 3) * 1 + 1 * u.val = win0_3.index t (0 : Fin 3); omega
      | ⟨1, _⟩ => show win0_3.index t (1 : Fin 3) * 256 + 1 * q.val = win0_3.index t (1 : Fin 3) * 256 + q.val; omega
      | ⟨2, _⟩ => show win0_3.index t (2 : Fin 3) * 1024 + 1 * d.val = d.val; omega)
  rw [hi]
  exact context_block (queries m c) (keys m c) (iblk m c 0 t) (iblk m c 1 t) (iblk m c 2 t) _ _ u q d
    (fun d' => iblk0_apply m c t _ _ (by show win0_3.index t (0 : Fin 3) = win0_0.index t (0 : Fin 3) * 1 + 0; omega)
      (by show win0_3.index t (1 : Fin 3) * 256 + q.val = win0_0.index t (1 : Fin 3) * 256 + q.val; omega)
      (by show d'.val = win0_0.index t (2 : Fin 3) * 1024 + d'.val; omega))
    (fun k d' => iblk1_apply m c t _ _ (by show win0_3.index t (0 : Fin 3) = win0_1.index t (0 : Fin 3) * 1 + 0; omega)
      (by show k.val = win0_1.index t (1 : Fin 3) * 2048 + k.val; omega)
      (by show d'.val = win0_1.index t (2 : Fin 3) * 1024 + d'.val; omega))
    (fun k d' => iblk2_apply m c t _ _ (by show win0_3.index t (0 : Fin 3) = win0_2.index t (0 : Fin 3) * 1 + 0; omega)
      (by show k.val = win0_2.index t (1 : Fin 3) * 2048 + k.val; omega)
      (by show d'.val = win0_2.index t (2 : Fin 3) * 1024 + d'.val; omega))

/-- The weight entry point `t` stores at block coordinate `y` is the weight array's entry under it. -/
theorem weight_point (c : Dev nD) (t : Fin cfg0.N) (y : S1x256x2048.Idx) :
    k0_pay3 (F := Ideal) (iblk m c 0 t) (iblk m c 1 t) y
      = weights (queries m c) (keys m c) (((cfg0.win 4).blk t).view.emb y) := by
  obtain ⟨e00, e01, e02, e10, e11, e12, e20, e21, e22, e40, e41, e42, hb, hq, e32⟩ := idx_facts t
  obtain ⟨u, q, k, rfl⟩ : ∃ (u : Fin 1) (q : Fin 256) (k : Fin 2048), y = ix3 u q k := ⟨y 0, y 1, y 2, eq_ix3 y⟩
  have hu : u.val = 0 := by omega
  have hq' : q.val < 256 := q.isLt
  have hi : ((cfg0.win 4).blk t).view.emb (ix3 u q k)
      = ix3 (⟨win0_3.index t (0 : Fin 3), by omega⟩ : Fin 8) (⟨win0_3.index t (1 : Fin 3) * 256 + q.val, by omega⟩ : Fin 2048) k :=
    funext fun a => Fin.ext (by
      match a with
      | ⟨0, _⟩ => show win0_4.index t (0 : Fin 3) * 1 + 1 * u.val = win0_3.index t (0 : Fin 3); omega
      | ⟨1, _⟩ => show win0_4.index t (1 : Fin 3) * 256 + 1 * q.val = win0_3.index t (1 : Fin 3) * 256 + q.val; omega
      | ⟨2, _⟩ => show win0_4.index t (2 : Fin 3) * 2048 + 1 * k.val = k.val; omega)
  rw [hi]
  exact weight_block (queries m c) (keys m c) (iblk m c 0 t) (iblk m c 1 t) _ _ u q k
    (fun d' => iblk0_apply m c t _ _ (by show win0_3.index t (0 : Fin 3) = win0_0.index t (0 : Fin 3) * 1 + 0; omega)
      (by show win0_3.index t (1 : Fin 3) * 256 + q.val = win0_0.index t (1 : Fin 3) * 256 + q.val; omega)
      (by show d'.val = win0_0.index t (2 : Fin 3) * 1024 + d'.val; omega))
    (fun k' d' => iblk1_apply m c t _ _ (by show win0_3.index t (0 : Fin 3) = win0_1.index t (0 : Fin 3) * 1 + 0; omega)
      (by show k'.val = win0_1.index t (1 : Fin 3) * 2048 + k'.val; omega)
      (by show d'.val = win0_1.index t (2 : Fin 3) * 1024 + d'.val; omega))

/-- Point `t` writes back block `t` of the context array. -/
theorem flushed3_eq (c : Dev nD) (t : Fin cfg0.N) :
    (dats m 0 c).flushed 3 t = ((cfg0.win 3).blk t).view.read (Elt Ideal) (contexts (queries m c) (keys m c)) := by
  rw [Cert.KernelIdeal.Value.flushed3 m c t]
  unfold out0_3
  rw [View.canon_unit_zero hz]
  simp only [View.ld_unit_zero (S := S1x256x1024) hz, View.ld_unit_zero (S := S1x2048x1024) hz]
  refine funext fun (y : S1x256x1024.Idx) => ?_
  exact context_point m c t y

/-- Point `t` writes back block `t` of the weight array. -/
theorem flushed4_eq (c : Dev nD) (t : Fin cfg0.N) :
    (dats m 0 c).flushed 4 t = ((cfg0.win 4).blk t).view.read (Elt Ideal) (weights (queries m c) (keys m c)) := by
  rw [Cert.KernelIdeal.Value.flushed4 m c t]
  unfold out0_4
  rw [View.canon_unit_zero hz]
  simp only [View.ld_unit_zero (S := S1x256x1024) hz, View.ld_unit_zero (S := S1x2048x1024) hz]
  refine funext fun (y : S1x256x2048.Idx) => ?_
  exact weight_point m c t y

/-! ## The blocks cover the arrays -/

/-- An index of the context array is in point `t`'s block iff each coordinate is in the block's range on its axis. -/
theorem mem_blk3 (t : Fin cfg0.N) (i : S8x2048x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v1_0).slice (win0_3.rect t)).set ↔ _
  rw [View.set_slice_whole, Rect.mem_set_unit]
  exact Iff.rfl

/-- An index of the weight array is in point `t`'s block iff each coordinate is in the block's range on its axis. -/
theorem mem_blk4 (t : Fin cfg0.N) (i : S8x2048x2048.Idx) :
    i ∈ ((cfg0.win 4).blk t).view.set ↔ ∀ a : Fin 3, win0_4.index t a * S1x256x2048.size a ≤ (i a).val
      ∧ (i a).val < win0_4.index t a * S1x256x2048.size a + S1x256x2048.size a := by
  show i ∈ ((View.whole main_v1_1).slice (win0_4.rect t)).set ↔ _
  rw [View.set_slice_whole, Rect.mem_set_unit]
  exact Iff.rfl

/-- Entry `(b, r, d)` of the context array is in the block of the point at batch `b` and row tile `r / 256`. -/
theorem cover3 (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- Entry `(b, r, k)` of the weight array is in the block of the point at batch `b` and row tile `r / 256`. -/
theorem cover4 (i : S8x2048x2048.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  obtain ⟨e00, e01, e02, e10, e11, e12, e20, e21, e22, e40, e41, e42, hb, hq, e32⟩ := idx_facts t
  have q0 : win0_3.index t (0 : Fin 3) = (i 0).val := congrFun ht 0
  have q1 : win0_3.index t (1 : Fin 3) = (i 1).val / 256 := congrFun ht 1
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-! ## The arrays after the run -/

/-- The first result array ends holding the context rows of the arguments. -/
theorem final3 (c : Dev nD) : (dats m 0 c).arrAt 3 cfg0.N = contexts (queries m c) (keys m c) :=
  (dats m 0 c).arrAt_eq_of_cover 3 (contexts (queries m c) (keys m c)) (fun t _ => flushed3_eq m c t) cover3

/-- The second result array ends holding the attention weights of the arguments. -/
theorem final4 (c : Dev nD) : (dats m 0 c).arrAt 4 cfg0.N = weights (queries m c) (keys m c) :=
  (dats m 0 c).arrAt_eq_of_cover 4 (weights (queries m c) (keys m c)) (fun t _ => flushed4_eq m c t) cover4

/-- Every weakly fair execution of the idealized kernel program terminates with its two results at the context rows and
    the attention weights of its arguments, and the arguments unchanged. -/
theorem run : θ_run defs (onTc (τ := τ) (main (F := Ideal))) ⟨m, fun _ => 0, ρ⟩ fun r => ∀ c : Dev nD,
      r.2.mem ((c : Thread nD τ).loc main_v1_0) = contexts (queries m c) (keys m c)
      ∧ r.2.mem ((c : Thread nD τ).loc main_v1_1) = weights (queries m c) (keys m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c), (h c).2.2.1, (h c).2.2.2⟩)
    (Cert.KernelIdeal.Value.run_blocks m ρ)

end Cert.KernelIdeal.Blocks

end
-- ==== Proof.RefValue.lean ====
/-
  The reference program's two results, read one operation at a time, are the attention weights and the context rows of
  `Cert.Attention`: its scores are the batched product of the two arguments contracted over the last axis, the row
  maximum is a reduction by `max` from `-∞` (joined once more with `-∞`, which changes nothing), the unnormalised
  weights the exponential of the difference, the normaliser their sum from zero, the weights the quotient, and the
  contexts the batched product of the weights with the second argument contracted over the key axis.
-/
import proofs.«142089_j15994458211114_2_alg».proof.Proof.Gen.ReferenceIdeal.Read
import proofs.«142089_j15994458211114_2_alg».proof.Proof.Spec
import proofs.«142089_j15994458211114_2_alg».proof.Proof.LibRowMax

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attention

variable (x0 x1 : (⟨S8x2048x1024, .f32⟩ : BufTy).Contents (Elt Ideal))

/-- The score array at `(b, q, k)` is the inner product of query row `(b, q)` with key row `(b, k)`. -/
theorem score_eq (b : Fin 8) (q k : Fin 2048) :
    val_main_v0 (F := Ideal) x0 x1 (ix3 b q k) = score (rowOf x0 b q) (rowsOf x1 b) k := by
  rw [val_main_v0_apply]
  unfold score
  refine Finset.sum_congr rfl fun d _ => ?_
  have e1 : lidx_main_v0 (ix3 b q k) d = ix3 b q d := funext fun a => Fin.ext (by
    match a with | ⟨0, _⟩ => rfl | ⟨1, _⟩ => rfl | ⟨2, _⟩ => rfl)
  have e2 : ridx_main_v0 (ix3 b q k) d = ix3 b k d := funext fun a => Fin.ext (by
    match a with | ⟨0, _⟩ => rfl | ⟨1, _⟩ => rfl | ⟨2, _⟩ => rfl)
  rw [e1, e2]

/-- The reduction by `max` over the key axis, at `(b, q)`, is the row's maximum. -/
theorem max_eq (b : Fin 8) (q : Fin 2048) :
    val_main_v1 (F := Ideal) x0 x1 (ix2 b q) = rowMax (rowOf x0 b q) (rowsOf x1 b) := by
  unfold val_main_v1
  refine (Cert.Lib.RowMax.hostReduce_maximumf_abc_ab_apply (val_main_v0 (F := Ideal) x0 x1) (val_main_cst (F := Ideal))
    reducesTo_S8x2048x2048_S8x2048_d2 (by decide) h_S_ b q).trans ?_
  unfold rowMax
  exact congrArg ((Finset.univ : Finset (Fin 2048)).fold max negInf) (funext fun k => score_eq x0 x1 b q k)

/-- Joined with `-∞` it is still the row's maximum. -/
theorem max_joined_eq (b : Fin 8) (q : Fin 2048) :
    val_main_v3 (F := Ideal) x0 x1 (ix2 b q) = rowMax (rowOf x0 b q) (rowsOf x1 b) := by
  rw [val_main_v3_apply, val_main_v2_apply, val_main_cst_0_apply, max_eq]
  exact max_negInf _

/-- Broadcast back along the key axis, every `(b, q, k)` reads the maximum of row `(b, q)`. -/
theorem max_bcast_eq (b : Fin 8) (q k : Fin 2048) :
    val_main_v5 (F := Ideal) x0 x1 (ix3 b q k) = rowMax (rowOf x0 b q) (rowsOf x1 b) := by
  rw [val_main_v5_apply, val_main_v4_apply]
  have e : idx_main_v4 (idx_main_v5 (ix3 b q k)) = ix2 b q := funext fun a => Fin.ext (by
    match a with | ⟨0, _⟩ => rfl | ⟨1, _⟩ => rfl)
  rw [e, max_joined_eq]

/-- The exponentials at `(b, q, k)` are the unnormalised weights. -/
theorem unnorm_eq (b : Fin 8) (q k : Fin 2048) :
    val_main_v7 (F := Ideal) x0 x1 (ix3 b q k) = unnorm (rowOf x0 b q) (rowsOf x1 b) k := by
  rw [val_main_v7_apply, val_main_v6_apply, score_eq, max_bcast_eq]
  rfl

/-- Their sum over the key axis from zero is the normaliser. -/
theorem denom_eq (b : Fin 8) (q : Fin 2048) :
    val_main_v8 (F := Ideal) x0 x1 (ix2 b q) = denom (rowOf x0 b q) (rowsOf x1 b) := by
  rw [val_main_v8_apply]
  unfold denom
  have e0 : val_main_cst_1 (F := Ideal) (Shape.Idx.first h_S_) = 0 := Ideal.ofBits_zero_f32
  rw [e0, zero_add]
  refine Finset.sum_congr rfl fun k _ => ?_
  have e : idx_main_v8 (ix2 b q) k = ix3 b q k := funext fun a => Fin.ext (by
    match a with | ⟨0, _⟩ => rfl | ⟨1, _⟩ => rfl | ⟨2, _⟩ => rfl)
  rw [e, unnorm_eq]

/-- The reference's second result is the array of attention weights. -/
theorem weights_eq : val_main_v11 (F := Ideal) x0 x1 = weights x0 x1 := by
  funext i
  obtain ⟨b, q, k, rfl⟩ : ∃ (b : Fin 8) (q : Fin 2048) (k : Fin 2048), i = ix3 b q k := ⟨i 0, i 1, i 2, eq_ix3 i⟩
  rw [val_main_v11_apply, val_main_v10_apply, val_main_v9_apply]
  have e : idx_main_v9 (idx_main_v10 (ix3 b q k)) = ix2 b q := funext fun a => Fin.ext (by
    match a with | ⟨0, _⟩ => rfl | ⟨1, _⟩ => rfl)
  rw [e, unnorm_eq, denom_eq]
  rfl

/-- The reference's first result is the array of context rows. -/
theorem contexts_eq : val_main_v12 (F := Ideal) x0 x1 = contexts x0 x1 := by
  funext i
  obtain ⟨b, q, d, rfl⟩ : ∃ (b : Fin 8) (q : Fin 2048) (d : Fin 1024), i = ix3 b q d := ⟨i 0, i 1, i 2, eq_ix3 i⟩
  rw [val_main_v12_apply, weights_eq]
  show _ = context (rowOf x0 b q) (rowsOf x1 b) (rowsOf x1 b) d
  unfold context
  refine Finset.sum_congr rfl fun k _ => ?_
  have e1 : lidx_main_v12 (ix3 b q d) k = ix3 b q k := funext fun a => Fin.ext (by
    match a with | ⟨0, _⟩ => rfl | ⟨1, _⟩ => rfl | ⟨2, _⟩ => rfl)
  have e2 : ridx_main_v12 (ix3 b q d) k = ix3 b k d := funext fun a => Fin.ext (by
    match a with | ⟨0, _⟩ => rfl | ⟨1, _⟩ => rfl | ⟨2, _⟩ => rfl)
  rw [e1, e2]
  rfl

end Cert.ReferenceIdeal.RefValue

end
-- ==== Proof.lean ====
/-
  The kernel computes dot-product attention of every query row of the first argument against the rows of the second
  argument in the same batch — scores, a softmax over the keys taken with the row maximum subtracted, and the weighted
  average of the same rows as values — one tile of 256 query rows per grid point; the reference computes the same
  with two batched products and a softmax over the last axis. Over the extended reals both results of both programs
  are the functions `Cert.Attention.contexts` and `Cert.Attention.weights` of the arguments: a narrowing of the float
  format is the identity, a product onto a zero accumulator is the sum of products, a lane reduction is the sum or the
  maximum over the row, and joining a row's maximum once more with `-∞` or starting a sum from zero changes nothing.
  No step needs the inputs to be finite.
-/
import proofs.«142089_j15994458211114_2_alg».proof.Defs
import proofs.«142089_j15994458211114_2_alg».proof.Proof.Gen.Kernel
import proofs.«142089_j15994458211114_2_alg».proof.Proof.Gen.Kernel.Frame
import proofs.«142089_j15994458211114_2_alg».proof.Proof.Gen.KernelIdeal
import proofs.«142089_j15994458211114_2_alg».proof.Proof.Gen.KernelIdeal.Frame
import proofs.«142089_j15994458211114_2_alg».proof.Proof.Gen.KernelIdeal.Value
import proofs.«142089_j15994458211114_2_alg».proof.Proof.Gen.ReferenceIdeal
import proofs.«142089_j15994458211114_2_alg».proof.Proof.Gen.ReferenceIdeal.Run
import proofs.«142089_j15994458211114_2_alg».proof.Proof.Gen.ReferenceIdeal.Read
import proofs.«142089_j15994458211114_2_alg».proof.Proof.Gen.Pre_finite_inputs
import proofs.«142089_j15994458211114_2_alg».proof.Proof.KernelBlocks
import proofs.«142089_j15994458211114_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the two arguments, both programs end with the context rows in their first result and
    the attention weights in their second, as the same functions of the arguments. -/
theorem algebraic : Cert.algebraic_KernelIdeal_ReferenceIdeal := by
  intro m ρ m' ρ' _ hagree
  refine ⟨fun c => Cert.Attention.contexts (Cert.KernelIdeal.Blocks.queries m c) (Cert.KernelIdeal.Blocks.keys m c),
    fun c => Cert.Attention.weights (Cert.KernelIdeal.Blocks.queries m c) (Cert.KernelIdeal.Blocks.keys m c),
    Cert.KernelIdeal.Blocks.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v12_eq, Cert.ReferenceIdeal.RefValue.contexts_eq, (hagree c).1, (hagree c).2]
  · rw [(h c).2.1, Cert.ReferenceIdeal.Read.val_main_v11_eq, Cert.ReferenceIdeal.RefValue.weights_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
